-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x128 .f32) (main_arg1 : IVec S1600000 32) (main_arg2 : IVec S1600000 32) (main_arg3 : FVec F S1600000 .f32) (main_arg4 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 26
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S100000x64, .bf16⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .bf16⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .bf16⟩
  | .local _ .vmem, ⟨4, _⟩ => ⟨S5000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000x64, .f32⟩
  | .hbm, ⟨24, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The dense projection both programs compute before their common sparse aggregation, stated once and
  apart from either program: for node features `x` (100000 × 128) and weights `w` (128 × 64), entry
  (r, c) of the projected features is the sum over k of x[r, k] · w[k, c], on the extended reals.
  A sum of products of extended reals is one definite value whatever order or grouping produced it, so
  no finiteness of the inputs is used anywhere below.
-/
import Idealize.ShloMosaic.PureOps.Ideal
import Idealize.ShloMosaic.Lib.ValueIdx

noncomputable section

namespace Cert.Dense

open Idealize.ShloMosaic Idealize.ShloMosaic.ValueIdx

/-- Node features. -/
abbrev SX : Shape := ⟨2, ![100000, 128]⟩
/-- Weights. -/
abbrev SW : Shape := ⟨2, ![128, 64]⟩
/-- Projected features. -/
abbrev SO : Shape := ⟨2, ![100000, 64]⟩

/-- Entry (row of `i`, `k`) of the features. -/
abbrev featAt (i : SO.Idx) (k : Fin 128) : SX.Idx := fun a => match a with
  | ⟨0, _⟩ => ⟨(i 0).val, (i 0).isLt⟩
  | ⟨1, _⟩ => ⟨k.val, k.isLt⟩
/-- Entry (`k`, column of `i`) of the weights. -/
abbrev weightAt (i : SO.Idx) (k : Fin 128) : SW.Idx := fun a => match a with
  | ⟨0, _⟩ => ⟨k.val, k.isLt⟩
  | ⟨1, _⟩ => ⟨(i 1).val, (i 1).isLt⟩

/-- The projected features: `(x · w)[r, c] = ∑ k, x[r, k] · w[k, c]`. -/
def proj (x : SX.Idx → EReal) (w : SW.Idx → EReal) : SO.Idx → EReal :=
  fun i => ∑ k : Fin 128, x (featAt i k) * w (weightAt i k)

theorem proj_apply (x : SX.Idx → EReal) (w : SW.Idx → EReal) (i : SO.Idx) :
    proj x w i = ∑ k : Fin 128, x (featAt i k) * w (weightAt i k) := rfl

end Cert.Dense

end
-- ==== Proof.BlockProduct.lean ====
/-
  What the kernel body stores at one grid point, read at an index. The body loads a 5000 × 128 block of
  the features and the whole 128 × 64 weights, narrows both, multiplies them on the matrix unit into a
  zero accumulator and narrows the product. On the extended reals a change of format is the identity and
  the zero accumulator adds nothing, so entry (p, q) of the stored block is the plain sum over k of
  block[p, k] · weights[k, q]. The contraction's one-axis index set is re-indexed to `Fin 128`.
-/
import proofs.«147982_j67104569032788_2_alg».proof.Proof.Gen.KernelIdeal.Skeleton
import Idealize.ShloMosaic.PureOps.Ideal.Laws
import Idealize.ShloMosaic.Lib.ValueIdx

noncomputable section

namespace Cert.KernelIdeal.Dense

open Cert.KernelIdeal Cert.KernelIdeal.Gen Idealize.ShloMosaic Idealize.ShloMosaic.TcCoe Idealize.SL.Sem

/-- The product's left operand index: row of the output index, contraction coordinate. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_contr (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_contr (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (row of `i`, `k`) of the features block. -/
abbrev blockFeatAt (i : S5000x64.Idx) (k : Fin 128) : S5000x128.Idx := fun a => match a with
  | ⟨0, _⟩ => ⟨(i 0).val, (i 0).isLt⟩
  | ⟨1, _⟩ => ⟨k.val, k.isLt⟩
/-- Entry (`k`, column of `i`) of the weights. -/
abbrev blockWeightAt (i : S5000x64.Idx) (k : Fin 128) : S128x64.Idx := fun a => match a with
  | ⟨0, _⟩ => ⟨k.val, k.isLt⟩
  | ⟨1, _⟩ => ⟨(i 1).val, (i 1).isLt⟩

/-- The stored block at an index: the sum over the contracted axis of block row times weights column. -/
theorem stored_apply (x0 : Vec Ideal S5000x128 .f32) (x1 : Vec Ideal S128x64 .f32) (i : S5000x64.Idx) :
    k0_pay1 (F := Ideal) x0 x1 i = ∑ k : Fin 128, x0 (blockFeatAt i k) * x1 (blockWeightAt i k) := by
  unfold k0_pay1
  refine (Ideal.matmul_constant_zero_apply dot_S5000x128_S128x64_S5000x64_1_0_0_1_n_n none
    (truncf .bf16 x0 bitsLt_bf16_f32) (truncf .bf16 x1 bitsLt_bf16_f32) i).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = blockFeatAt i k := funext fun a => Fin.ext (by
    match a with
    | ⟨0, _⟩ => exact lhs_row _ _
    | ⟨1, _⟩ => exact (lhs_contr _ _).trans hk)
  have er : dot_S5000x128_S128x64_S5000x64_1_0_0_1_n_n.rhsIdx i ((ValueIdx.contrEquiv1 dot_S5000x128_S128x64_S5000x64_1_0_0_1_n_n 128 rfl rfl).symm k) = blockWeightAt i k := funext fun a => Fin.ext (by
    match a with
    | ⟨0, _⟩ => exact (rhs_contr _ _).trans hk
    | ⟨1, _⟩ => exact rhs_col _ _)
  rw [el, er]
  rfl

end Cert.KernelIdeal.Dense

end
-- ==== Proof.ProjectedArray.lean ====
/-
  The array the kernel's one region leaves: the projected features, whole. Grid point `t` (of 20) reads rows
  5000·t … 5000·t + 4999 of the features and all of the weights, and writes back rows 5000·t … 5000·t + 4999 of the
  output; entry (p, q) of what it writes is the sum over k of features[5000·t + p, k] · weights[k, q], which is entry
  (5000·t + p, q) of the projection. Row r of the output lies in the block of point r / 5000, so the twenty blocks
  cover the array and it ends holding the projection at every index.
-/
import proofs.«147982_j67104569032788_2_alg».proof.Proof.Gen.KernelIdeal.Frame
import proofs.«147982_j67104569032788_2_alg».proof.Proof.Spec
import proofs.«147982_j67104569032788_2_alg».proof.Proof.BlockProduct
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Cert.Dense (proj featAt weightAt)

variable (m : (ℓ : Loc nD τ sig) → Buf (Elt Ideal) ℓ)

/-- The body's loads and its store start at the corner of their buffers. -/
theorem corner : (![0, 0] : Fin 2 → Nat) = fun _ => 0 := funext fun a => by fin_cases a <;> rfl

/-- The printed index maps over the grid: the features block and the output block of point `t` are both block `t`
    along the rows and block 0 along the columns; the weights are always their one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the output is some point's. -/
theorem every_row_block : ∀ b : Fin 20, ∃ t : Fin cfg0.N, win0_2.index t = ![b.val, 0] :=
  (by decide +kernel : ∀ b : Fin 20, ∃ t : Fin grid0.N, win0_2.index t = ![b.val, 0])

/-- A block's sum of products is an entry of the projection once each factor is read where the whole arrays hold it. -/
theorem sum_eq_proj (X : Cert.Dense.SX.Idx → EReal) (Wt : Cert.Dense.SW.Idx → EReal)
    (x0 : S5000x128.Idx → EReal) (x1 : S128x64.Idx → EReal) (j : S5000x64.Idx) (i : Cert.Dense.SO.Idx)
    (h0 : ∀ k : Fin 128, x0 (blockFeatAt j k) = X (featAt i k))
    (h1 : ∀ k : Fin 128, x1 (blockWeightAt j k) = Wt (weightAt i k)) :
    ∑ k : Fin 128, x0 (blockFeatAt j k) * x1 (blockWeightAt j k) = proj X Wt i :=
  Finset.sum_congr rfl fun k _ => by rw [h0 k, h1 k]

/-- What point `t` writes back is block `t` of the projection of the features and weights as the region finds them. -/
theorem written_back (c : Dev nD) (t : Fin cfg0.N) :
    (dats (F := Ideal) m 0 c).flushed 2 t
      = ((cfg0.win 2).blk t).view.read (Elt Ideal) (proj (V m c main_arg0) (V m c main_arg4)) := by
  show (cfg0.win 2).cut (grid0.coords t) ((dats m 0 c).after 2 t) = _
  rw [after0_2]
  unfold out0_2
  rw [View.canon_unit_zero corner]
  simp only [View.ld_unit_zero (S := S5000x128) corner, View.ld_unit_zero (S := S128x64) corner]
  obtain ⟨e0, e1, e2, e3, e4, e5⟩ := block_indices t
  funext j
  refine (stored_apply (iblk m c 0 t) (iblk m c 1 t) j).trans ?_
  have hj0 : (j 0).val < 5000 := (j 0).isLt
  have hj1 : (j 1).val < 64 := (j 1).isLt
  refine sum_eq_proj (V m c main_arg0) (V m c main_arg4) (iblk m c 0 t) (iblk m c 1 t) j
    (((cfg0.win 2).blk t).view.emb j) (fun k => ?_) (fun k => ?_)
  · have hk : k.val < 128 := k.isLt
    show V m c main_arg0 (((cfg0.win 0).blk t).view.emb (blockFeatAt j k)) = _
    refine congrArg (V m c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · have hk : k.val < 128 := k.isLt
    show V m c main_arg4 (((cfg0.win 1).blk t).view.emb (blockWeightAt j k)) = _
    refine congrArg (V m c main_arg4) ?_
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output is in point `t`'s block iff each coordinate is in the block's range on its axis. -/
theorem in_block_iff (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row `r` is written back by the point whose block is `r / 5000`: the blocks cover the output. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := every_row_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_block_iff]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the projection of the features and the weights. -/
theorem projected (c : Dev nD) :
    (dats (F := Ideal) m 0 c).arrAt 2 cfg0.N = proj (V m c main_arg0) (V m c main_arg4) :=
  (dats (F := Ideal) m 0 c).arrAt_eq_of_cover 2 (proj (V m c main_arg0) (V m c main_arg4))
    (fun t _ => written_back m c t) rows_covered

end Cert.KernelIdeal.Dense

end
-- ==== Proof.KernelTail.lean ====
/-
  The kernel program's result, read off its run. After the region has left the projected features in its output array,
  the program gathers the projected row of each edge's source node (a negative node number first wrapped by the node
  count), widens it, scales it by the edge's value, adds the scaled rows into the row of each edge's target node starting
  from zero, and clamps below at zero. That chain is carried here as ONE function `aggregate` of the projected
  features and the three edge arrays and is never opened: the two programs apply the same chain, so only the value
  going into it matters.
-/
import proofs.«147982_j67104569032788_2_alg».proof.Proof.Gen.KernelIdeal.Frame
import proofs.«147982_j67104569032788_2_alg».proof.Proof.ProjectedArray
import Idealize.ShloMosaic.Lib.StableHlo.Run

set_option maxRecDepth 16384

noncomputable section

namespace Cert.KernelIdeal.Dense

open Cert.KernelIdeal Cert.KernelIdeal.Gen Idealize.ShloMosaic Idealize.ShloMosaic.TcCoe Idealize.SL.Sem Idealize.ShloMosaic.StableHlo
open Idealize.ShloMosaic.Pipeline (Dat)
open Cert.Dense (proj)

/-- A run of lines one after another is the second stretch run from what the first leaves. -/
theorem after_append' {Val : EltTy → Type} (l1 l2 : List (HloOp τ sig Val)) (V : Valuation τ sig Val) :
    StableHlo.after (l1 ++ l2) V = StableHlo.after l2 (StableHlo.after l1 V) := by
  induction l1 generalizing V with
  | nil => rfl
  | cons op ops ih => exact ih _

/-- Gather, widen, scale, add by target node from zero: the sum over the edges into each target node's row, as a
    function of the region's output `xw`, the target nodes `row`, the source nodes `col` and the edge values `val`. -/
def edgeSum (xw : (⟨S100000x64, .bf16⟩ : BufTy).Contents (Elt Ideal)) (row col : (⟨S1600000, .i32⟩ : BufTy).Contents (Elt Ideal))
    (val : (⟨S1600000, .f32⟩ : BufTy).Contents (Elt Ideal)) : (⟨S100000x64, .f32⟩ : BufTy).Contents (Elt Ideal) :=
  Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (row))
      (mulf (broadcastInDim S1600000x64 ![0, 1] bcast_S1600000x1_S1600000x64_0_1 (broadcastInDim S1600000x1 ![0] bcast_S1600000_S1600000x1_0 (val)))
        (extf .f32 (Host.gather gather_S100000x64_S1600000x1_S1600000x64_1_0_n_n_0_1_164 (xw)
          (broadcastInDim S1600000x1 ![0] bcast_S1600000_S1600000x1_0
            (select (cmpi .slt (col) (broadcastInDim S1600000 ![] bcast_S_S1600000 (constantI S_ 32 0#32)))
              (addi (col) (broadcastInDim S1600000 ![] bcast_S_S1600000 (constantI S_ 32 100000#32))) (col)))) bitsLt_bf16_f32))

/-- The edge sums clamped below at zero: the program's lines after the region, as one function. -/
def aggregate (xw : (⟨S100000x64, .bf16⟩ : BufTy).Contents (Elt Ideal)) (row col : (⟨S1600000, .i32⟩ : BufTy).Contents (Elt Ideal))
    (val : (⟨S1600000, .f32⟩ : BufTy).Contents (Elt Ideal)) : (⟨S100000x64, .f32⟩ : BufTy).Contents (Elt Ideal) :=
  maximumf (F := Ideal) (s := S100000x64) (φ := .f32) (edgeSum xw row col val)
    (broadcastInDim S100000x64 ![] bcast_S_S100000x64 (constant (F := Ideal) S_ .f32 0x00000000#32))

/-- The chain depends on its four arguments only. -/
theorem aggregate_congr {xw xw' : (⟨S100000x64, .bf16⟩ : BufTy).Contents (Elt Ideal)} {row row' col col' : (⟨S1600000, .i32⟩ : BufTy).Contents (Elt Ideal)}
    {val val' : (⟨S1600000, .f32⟩ : BufTy).Contents (Elt Ideal)} (h0 : xw = xw') (h1 : row = row') (h2 : col = col') (h3 : val = val') :
    aggregate xw row col val = aggregate xw' row' col' val' := by rw [h0, h1, h2, h3]

set_option maxHeartbeats 2000000 in
/-- The seventeen lines between the region and the clamp, run from ANY contents `W` of the buffers, leave the edge
    sums of what `W` holds in the region's output array and in the three edge arrays. -/
theorem sum_lines (W : Valuation τ sig (Elt Ideal)) :
    StableHlo.after hostOps1 W (Proc.devRef .tc main_v14)
      = Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (W (Proc.devRef .tc main_arg1)))
      (mulf (broadcastInDim S1600000x64 ![0, 1] bcast_S1600000x1_S1600000x64_0_1 (broadcastInDim S1600000x1 ![0] bcast_S1600000_S1600000x1_0 (W (Proc.devRef .tc main_arg3))))
        (extf .f32 (Host.gather gather_S100000x64_S1600000x1_S1600000x64_1_0_n_n_0_1_164 (W (Proc.devRef .tc main_v0))
          (broadcastInDim S1600000x1 ![0] bcast_S1600000_S1600000x1_0
            (select (cmpi .slt (W (Proc.devRef .tc main_arg2)) (broadcastInDim S1600000 ![] bcast_S_S1600000 (constantI S_ 32 0#32)))
              (addi (W (Proc.devRef .tc main_arg2)) (broadcastInDim S1600000 ![] bcast_S_S1600000 (constantI S_ 32 100000#32))) (W (Proc.devRef .tc main_arg2))))) bitsLt_bf16_f32)) := by
  simp only [hostOps1]
  after_results <;> rfl

/-- The clamp's three lines, run from any contents `W`, leave the maximum of what `W` holds before them and zero. -/
theorem clamp_lines (W : Valuation τ sig (Elt Ideal)) :
    StableHlo.after hostOps1_1 W (Proc.devRef .tc main_v15)
      = maximumf (F := Ideal) (s := S100000x64) (φ := .f32) (W (Proc.devRef .tc main_v14)) (broadcastInDim S100000x64 ![] bcast_S_S100000x64 (constant (F := Ideal) S_ .f32 0x00000000#32)) := by
  simp only [hostOps1_1]
  after_results <;> rfl

/-- All the lines after the region, run from any contents `W`: the result buffer ends at the chain applied to what
    `W` holds in the region's output array and in the three edge arrays. -/
theorem lines_after (W : Valuation τ sig (Elt Ideal)) :
    StableHlo.after (List.flatten [hostOps1, hostOps1_1]) W (Proc.devRef .tc main_v15)
      = aggregate (W (Proc.devRef .tc main_v0)) (W (Proc.devRef .tc main_arg1)) (W (Proc.devRef .tc main_arg2)) (W (Proc.devRef .tc main_arg3)) := by
  have h : List.flatten [(hostOps1 : List (HloOp τ sig (Elt Ideal))), hostOps1_1] = hostOps1 ++ hostOps1_1 := by
    simp only [List.flatten_cons, List.flatten_nil, List.append_nil]
  rw [h, after_append', clamp_lines, sum_lines]
  unfold aggregate edgeSum
  rfl

variable (m : (ℓ : Loc nD τ sig) → Buf (Elt Ideal) ℓ) (ρ : Dev nD → PrngReg)

/-- The program's result buffer after the lines that follow the region: the chain applied to the region's output array
    and the edge arrays as launched. -/
theorem result_eq (c : Dev nD) :
    Pipeline.afterTail₀ cfgs (dats (F := Ideal) m) 0 (V0 m) [hostOps1, hostOps1_1] c main_v15
      = aggregate ((dats (F := Ideal) m 0 c).arrAt 2 cfg0.N) (m ((c : Thread nD τ).loc main_arg1))
          (m ((c : Thread nD τ).loc main_arg2)) (m ((c : Thread nD τ).loc main_arg3)) := by
  unfold Pipeline.afterTail₀
  refine (lines_after _).trans (aggregate_congr ?_ ?_ ?_ ?_)
  · exact Pipeline.withArrays_arr spec0 launch0.win.arr_inj c (V0 m c) (fun w => (dats (F := Ideal) m 0 c).arrAt w cfg0.N) 2
  · exact (Pipeline.withArrays_of_ne spec0 c (V0 m c) _ main_arg1 (by exact (by decide : ∀ w, Pipeline.arrRef spec0 w ≠ main_arg1))).trans (V_main_arg1 m c)
  · exact (Pipeline.withArrays_of_ne spec0 c (V0 m c) _ main_arg2 (by exact (by decide : ∀ w, Pipeline.arrRef spec0 w ≠ main_arg2))).trans (V_main_arg2 m c)
  · exact (Pipeline.withArrays_of_ne spec0 c (V0 m c) _ main_arg3 (by exact (by decide : ∀ w, Pipeline.arrRef spec0 w ≠ main_arg3))).trans (V_main_arg3 m c)

end Cert.KernelIdeal.Dense

end
-- ==== Proof.KernelRun.lean ====
/-
  The kernel program's run, with its result named: every weakly fair execution terminates, the result buffer holding
  the edge-sum-and-clamp chain applied to the projection of the features and the weights as launched and to the edge
  arrays as launched, and the five argument arrays unchanged. It is the generated frame run re-posted: the region's
  output array is the projection, the lines after the region apply the chain, and an argument array is either a staged
  input (never written) or a buffer none of those lines writes.
-/
import proofs.«147982_j67104569032788_2_alg».proof.Proof.Gen.KernelIdeal.Frame
import proofs.«147982_j67104569032788_2_alg».proof.Proof.ProjectedArray
import proofs.«147982_j67104569032788_2_alg».proof.Proof.KernelTail

set_option maxRecDepth 16384

noncomputable section

namespace Cert.KernelIdeal.Dense

open Cert.KernelIdeal Cert.KernelIdeal.Gen Idealize.ShloMosaic Idealize.ShloMosaic.TcCoe Idealize.SL.Sem Idealize.ShloMosaic.StableHlo
open Idealize.ShloMosaic.Pipeline (Dat)
open Cert.Dense (proj)

variable (m : (ℓ : Loc nD τ sig) → Buf (Elt Ideal) ℓ) (ρ : Dev nD → PrngReg)

/-- The result buffer after the whole program, in terms of the launch contents alone. -/
theorem result_at_launch (c : Dev nD) :
    Pipeline.afterTail₀ cfgs (dats (F := Ideal) m) 0 (V0 m) [hostOps1, hostOps1_1] c main_v15
      = aggregate (proj (m ((c.tc : Thread nD τ).loc main_arg0)) (m ((c.tc : Thread nD τ).loc main_arg4))) (m ((c.tc : Thread nD τ).loc main_arg1))
          (m ((c.tc : Thread nD τ).loc main_arg2)) (m ((c.tc : Thread nD τ).loc main_arg3)) :=
  (result_eq m c).trans (aggregate_congr
    ((projected m c).trans (congrArg₂ proj (V_main_arg0 m c) (V_main_arg4 m c))) rfl rfl rfl)

theorem run : θ_run defs (onTc (τ := τ) (main (F := Ideal))) ⟨m, fun _ => 0, ρ⟩ fun r => ∀ c : Dev nD,
      r.2.mem ((c.tc : Thread nD τ).loc main_v15)
        = aggregate (proj (m ((c.tc : Thread nD τ).loc main_arg0)) (m ((c.tc : Thread nD τ).loc main_arg4))) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v15 (Pipeline.mem_restRefs_of main_v15 (by decide) (by decide))).trans (result_at_launch m c),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats (F := Ideal) m 0 c).arrAt_in 1 rfl _).trans ((A_eq m c 1).trans (V_main_arg4 m c)))⟩)
    (run_main m ρ)

end Cert.KernelIdeal.Dense

end
-- ==== Proof.RefProjection.lean ====
/-
  The reference program's result as the same two steps. Its first line is one whole matrix product of the features and
  the weights, which on the extended reals is the projection entry by entry (the sum over the contracted axis, with no
  accumulator); everything after it is the gather – scale – add-by-target-node – clamp chain, carried as one function
  of the projected features and the edge arrays and never opened.
-/
import proofs.«147982_j67104569032788_2_alg».proof.Proof.Gen.ReferenceIdeal.Read
import proofs.«147982_j67104569032788_2_alg».proof.Proof.Spec

noncomputable section

namespace Cert.ReferenceIdeal.Dense

open Cert.ReferenceIdeal Cert.ReferenceIdeal.Gen Idealize.ShloMosaic Idealize.ShloMosaic.TcCoe Idealize.SL.Sem
open Cert.Dense (proj featAt weightAt)

/-- The reference's matrix product is the projection. -/
theorem product_eq_proj (x0 : (⟨S100000x128, .f32⟩ : BufTy).Contents (Elt Ideal)) (x4 : (⟨S128x64, .f32⟩ : BufTy).Contents (Elt Ideal)) :
    Host.dotGeneral (F := Ideal) (φ₁ := .f32) (φ₂ := .f32) dot_S100000x128_S128x64_S100000x64_1_0_0_1_n_n none x0 x4 = proj x0 x4 := by
  funext i
  refine (Read.val_main_v0_apply x0 x4 i).trans ?_
  refine Finset.sum_congr rfl fun k _ => ?_
  have el : Read.lidx_main_v0 i k = featAt i k := funext fun a => Fin.ext (by
    match a with
    | ⟨0, _⟩ => rfl
    | ⟨1, _⟩ => rfl)
  have er : Read.ridx_main_v0 i k = weightAt i k := funext fun a => Fin.ext (by
    match a with
    | ⟨0, _⟩ => rfl
    | ⟨1, _⟩ => rfl)
  rw [el, er]

/-- Gather, scale, add by target node from zero, clamp at zero: the reference's lines after its product, as a function
    of the projected features `xw`, the target nodes `row`, the source nodes `col` and the edge values `val`. -/
def aggregate (xw : (⟨S100000x64, .f32⟩ : BufTy).Contents (Elt Ideal)) (row col : (⟨S1600000, .i32⟩ : BufTy).Contents (Elt Ideal))
    (val : (⟨S1600000, .f32⟩ : BufTy).Contents (Elt Ideal)) : (⟨S100000x64, .f32⟩ : BufTy).Contents (Elt Ideal) :=
  maximumf (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 row)
      (mulf (broadcastInDim S1600000x64 ![0, 1] bcast_S1600000x1_S1600000x64_0_1 (broadcastInDim S1600000x1 ![0] bcast_S1600000_S1600000x1_0 val))
        (Host.gather gather_S100000x64_S1600000x1_S1600000x64_1_0_n_n_0_1_164 xw
          (broadcastInDim S1600000x1 ![0] bcast_S1600000_S1600000x1_0
            (select (cmpi .slt col (broadcastInDim S1600000 ![] bcast_S_S1600000 (constantI S_ 32 0#32)))
              (addi col (broadcastInDim S1600000 ![] bcast_S_S1600000 (constantI S_ 32 100000#32))) col)))))
    (broadcastInDim S100000x64 ![] bcast_S_S100000x64 (constant (F := Ideal) S_ .f32 0x00000000#32))

/-- The term the reference's run ends at is the chain applied to the projection. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x64, .f32⟩ : BufTy).Contents (Elt Ideal)) :
    maximumf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (x1)) (mulf (broadcastInDim S1600000x64 ![0, 1] bcast_S1600000x1_S1600000x64_0_1 (broadcastInDim S1600000x1 ![0] bcast_S1600000_S1600000x1_0 (x3))) (Host.gather gather_S100000x64_S1600000x1_S1600000x64_1_0_n_n_0_1_164 (Host.dotGeneral (F := Ideal) (φ₁ := .f32) (φ₂ := .f32) dot_S100000x128_S128x64_S100000x64_1_0_0_1_n_n none (x0) (x4)) (broadcastInDim S1600000x1 ![0] bcast_S1600000_S1600000x1_0 (select (cmpi .slt (x2) (broadcastInDim S1600000 ![] bcast_S_S1600000 (constantI S_ 32 0#32))) (addi (x2) (broadcastInDim S1600000 ![] bcast_S_S1600000 (constantI S_ 32 100000#32))) (x2)))))) (broadcastInDim S100000x64 ![] bcast_S_S100000x64 (constant (F := Ideal) S_ .f32 0x00000000#32))
      = aggregate (proj x0 x4) x1 x2 x3 := by
  rw [product_eq_proj x0 x4]
  rfl

end Cert.ReferenceIdeal.Dense

end
-- ==== Proof.ChainsAgree.lean ====
/-
  The two programs apply the same chain after their products. The kernel program's differs from the reference's in
  one line only: it gathers rows stored in the narrower format and widens them before scaling; on the extended reals
  widening is the identity, so for equal projected features, edge lists and edge values the two chains give equal
  results. The chains themselves (the gather, the sum by target node) are compared as they stand and never opened.
-/
import proofs.«147982_j67104569032788_2_alg».proof.Proof.KernelTail
import proofs.«147982_j67104569032788_2_alg».proof.Proof.RefProjection

noncomputable section

namespace Cert.Dense

open Idealize.ShloMosaic

/-- Widening a vector of extended reals changes nothing. -/
theorem widen_id {s : Shape} (v : FVec Ideal s .bf16) (h : FTy.bits .bf16 < FTy.bits .f32) :
    extf (F := Ideal) .f32 v h = v := rfl

set_option maxHeartbeats 400000 in
/-- The kernel program's chain is the reference's. -/
theorem chains_agree (xw : (⟨Cert.ReferenceIdeal.S100000x64, .f32⟩ : BufTy).Contents (Elt Ideal))
    (row col : (⟨Cert.ReferenceIdeal.S1600000, .i32⟩ : BufTy).Contents (Elt Ideal))
    (val : (⟨Cert.ReferenceIdeal.S1600000, .f32⟩ : BufTy).Contents (Elt Ideal)) :
    Cert.ReferenceIdeal.Dense.aggregate xw row col val = Cert.KernelIdeal.Dense.aggregate xw row col val := by
  unfold Cert.ReferenceIdeal.Dense.aggregate Cert.KernelIdeal.Dense.aggregate Cert.KernelIdeal.Dense.edgeSum
  rw [widen_id]
  rfl

end Cert.Dense

end
-- ==== Proof.lean ====
/-
  A graph layer: project the node features by a weight matrix, then for every edge add the edge's value times the
  projected row of its source node into the row of its target node, and clamp the sums below at zero.

  The kernel program computes the projection in a region of twenty grid points, each multiplying a block of 5000 rows
  of the features by the whole weight matrix in a narrower format; the reference computes it as one matrix product.
  On the extended reals a change of format is the identity and either product is, entry by entry, the same finite sum
  of products — so the region's output array and the reference's product are one function of the features and the
  weights. After that both programs run the same gather – scale – add-by-target – clamp chain on it (the kernel
  program's has one extra widening, again the identity), so their results are equal. No law that fails at the
  infinities is used, hence the finiteness of the inputs is never opened.

  The three frames are the generated ones (the reference's is its run with the result dropped); nothing was rewritten
  when the kernel program was idealized, so there is nothing to preserve.
-/
import proofs.«147982_j67104569032788_2_alg».proof.Defs
import proofs.«147982_j67104569032788_2_alg».proof.Proof.Gen.Kernel
import proofs.«147982_j67104569032788_2_alg».proof.Proof.Gen.Kernel.Skeleton
import proofs.«147982_j67104569032788_2_alg».proof.Proof.Gen.Kernel.Launch
import proofs.«147982_j67104569032788_2_alg».proof.Proof.Gen.Kernel.Points
import proofs.«147982_j67104569032788_2_alg».proof.Proof.Gen.Kernel.Frame
import proofs.«147982_j67104569032788_2_alg».proof.Proof.Gen.KernelIdeal
import proofs.«147982_j67104569032788_2_alg».proof.Proof.Gen.KernelIdeal.Skeleton
import proofs.«147982_j67104569032788_2_alg».proof.Proof.Gen.KernelIdeal.Launch
import proofs.«147982_j67104569032788_2_alg».proof.Proof.Gen.KernelIdeal.Points
import proofs.«147982_j67104569032788_2_alg».proof.Proof.Gen.KernelIdeal.Frame
import proofs.«147982_j67104569032788_2_alg».proof.Proof.Gen.ReferenceIdeal
import proofs.«147982_j67104569032788_2_alg».proof.Proof.Gen.ReferenceIdeal.Run
import proofs.«147982_j67104569032788_2_alg».proof.Proof.Gen.ReferenceIdeal.Read
import proofs.«147982_j67104569032788_2_alg».proof.Proof.Gen.Pre_finite_inputs
import proofs.«147982_j67104569032788_2_alg».proof.Proof.KernelRun
import proofs.«147982_j67104569032788_2_alg».proof.Proof.RefProjection
import proofs.«147982_j67104569032788_2_alg».proof.Proof.ChainsAgree
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel program rewrote nothing. -/
theorem preserves : Cert.preserves_Kernel_KernelIdeal := trivial

/-- From memories that agree on the arguments both programs end at the chain applied to the projection of the
    features and the weights: the kernel program by its run, the reference because its product is the projection and
    its chain is the kernel program's. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Dense.result_eq _ _ _ _ _).trans (Cert.Dense.chains_agree _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
